-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512x512 .f32) (main_arg17 : FVec F S512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512x512 .f32) (main_arg13 : FVec F S512 .f32) (main_arg14 : FVec F S512 .f32) (main_arg15 : FVec F S512x512 .f32) (main_arg16 : FVec F S512x512 .f32) (main_arg17 : FVec F S512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512x512 .f32) (main_arg9 : FVec F S512 .f32) (main_arg10 : FVec F S512 .f32) (main_arg11 : FVec F S512x512 .f32) (main_arg12 : FVec F S512x512 .f32) (main_arg13 : FVec F S512 .f32) (main_arg14 : FVec F S512 .f32) (main_arg15 : FVec F S512x512 .f32) (main_arg16 : FVec F S512x512 .f32) (main_arg17 : FVec F S512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512x512 .f32) (main_arg5 : FVec F S512 .f32) (main_arg6 : FVec F S512 .f32) (main_arg7 : FVec F S512x512 .f32) (main_arg8 : FVec F S512x512 .f32) (main_arg9 : FVec F S512 .f32) (main_arg10 : FVec F S512 .f32) (main_arg11 : FVec F S512x512 .f32) (main_arg12 : FVec F S512x512 .f32) (main_arg13 : FVec F S512 .f32) (main_arg14 : FVec F S512 .f32) (main_arg15 : FVec F S512x512 .f32) (main_arg16 : FVec F S512x512 .f32) (main_arg17 : FVec F S512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S32768x512 .f32) (main_arg1 : FVec F S32768x512 .f32) (main_arg2 : FVec F S32768x512 .f32) (main_arg3 : FVec F S512x512 .f32) (main_arg4 : FVec F S512x512 .f32) (main_arg5 : FVec F S512 .f32) (main_arg6 : FVec F S512 .f32) (main_arg7 : FVec F S512x512 .f32) (main_arg8 : FVec F S512x512 .f32) (main_arg9 : FVec F S512 .f32) (main_arg10 : FVec F S512 .f32) (main_arg11 : FVec F S512x512 .f32) (main_arg12 : FVec F S512x512 .f32) (main_arg13 : FVec F S512 .f32) (main_arg14 : FVec F S512 .f32) (main_arg15 : FVec F S512x512 .f32) (main_arg16 : FVec F S512x512 .f32) (main_arg17 : FVec F S512 .f32) (main_arg18 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S32768x512 : Shape := ⟨2, ![32768, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S1x2048 : Shape := ⟨2, ![1, 2048]⟩

abbrev nBuf : Space → Nat
  | .hbm => 31
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512x512, .f32⟩
  | .hbm, ⟨17, _⟩ => ⟨S512, .f32⟩
  | .hbm, ⟨18, _⟩ => ⟨S512, .f32⟩
  | .hbm, ⟨19, _⟩ => ⟨S512x2048, .f32⟩
  | .hbm, ⟨20, _⟩ => ⟨S512x2048, .bf16⟩
  | .hbm, ⟨21, _⟩ => ⟨S512x2048, .f32⟩
  | .hbm, ⟨22, _⟩ => ⟨S512x2048, .bf16⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S2048, .f32⟩
  | .hbm, ⟨28, _⟩ => ⟨S1x2048, .f32⟩
  | .hbm, ⟨29, _⟩ => ⟨S32768x512, .f32⟩
  | .hbm, ⟨30, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x512_S512x512_S512x512_S512x512_S512x2048_d1 : Shape.Concatenates [S512x512, S512x512, S512x512, S512x512] S512x2048 1
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S32768x512.size a
  hwx0_6 : ∀ i : grid0.Coords, EltTy.bits .f32 = 32 ∨ (Rect.block (s := S32768x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S32768x512.size a
  hwx0_7 : ∀ i : grid0.Coords, EltTy.bits .f32 = 32 ∨ (Rect.block (s := S32768x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512x512, .f32⟩
  | .hbm, ⟨17, _⟩ => ⟨S512, .f32⟩
  | .hbm, ⟨18, _⟩ => ⟨S512, .f32⟩
  | .hbm, ⟨19, _⟩ => ⟨S512x2048, .f32⟩
  | .hbm, ⟨20, _⟩ => ⟨S512x2048, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S1x2048, .f32⟩
  | .hbm, ⟨30, _⟩ => ⟨S32768x2048, .f32⟩
  | .hbm, ⟨31, _⟩ => ⟨S32768x2048, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768x512, .f32⟩
  | .hbm, ⟨56, _⟩ => ⟨S32768x512, .f32⟩
  | .hbm, ⟨57, _⟩ => ⟨S_, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S_, .f32⟩
  | .hbm, ⟨63, _⟩ => ⟨S32768x512, .f32⟩
  | .hbm, ⟨64, _⟩ => ⟨S32768x512, .f32⟩
  | .hbm, ⟨65, _⟩ => ⟨S_, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S32768x512, .f32⟩
  | .hbm, ⟨72, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]

class Facts₀ : Prop where
  concatenates_S512x512_S512x512_S512x512_S512x512_S512x2048_d1 : Shape.Concatenates [S512x512, S512x512, S512x512, S512x512] S512x2048 1
  concatenates_S512_S512_S512_S512_S2048_d0 : Shape.Concatenates [S512, S512, S512, S512] S2048 0
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  slices_S32768x2048_S32768x512_0_0 : S32768x2048.Slices ![0, 0] S32768x512
  slices_S32768x2048_S32768x512_0_512 : S32768x2048.Slices ![0, 512] S32768x512
  slices_S32768x2048_S32768x512_0_1024 : S32768x2048.Slices ![0, 1024] S32768x512
  slices_S32768x2048_S32768x512_0_1536 : S32768x2048.Slices ![0, 1536] S32768x512
  bcast_S_S32768x512 : S_.BroadcastsInDim S32768x512 (![] : Fin 0 → Fin S32768x512.rank)
  dot_S32768x512_S512x2048_S32768x2048_1_0_0_1_n_n_wf : DotDims.WF S32768x512 S512x2048 S32768x2048 [1] [0] [0] [1] [] []

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf

class Facts : Prop extends Facts₀ where

variable [Facts]
-- ==== Proof.FrameBits.lean ====
/-
  The frame of the program `Kernel`: its @main is ten host operations (two concatenations of four
  weight matrices along the columns, each rounded to bf16; four sums of two bias vectors,
  concatenated and reshaped to one row) followed by one pipelined region over 64 grid points.
  At point t the body reads rows 512·t … 512·t+511 of the three activation arrays, the two whole
  packed weight matrices and the bias row, and writes rows 512·t … 512·t+511 of the two results.
  Stated here, for any float instance: the buffers' contents when the region is entered (the fold
  of the host operations over the launch memory), each window's block at a point, what the body
  leaves in the two output blocks as one term of the six input blocks, the body's triple, the
  proof data of the pipeline, the run of @main to the pipeline library's post, and from it that
  every argument array ends as it was launched.
-/
import proofs.«110583_j3728031613360_2_alg».proof.Proof.Gen.Kernel.Launch
import proofs.«110583_j3728031613360_2_alg».proof.Proof.Gen.Kernel.Skeleton
import proofs.«110583_j3728031613360_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the ten host operations. -/
abbrev V (c : Dev nD) (b : Ref sig .tc) : Buf (Elt F) ((c : Thread nD τ).loc b) :=
  StableHlo.after hostOps0 (fun b => m (c, b)) b

/-- Every host operation determines what it writes. -/
theorem hostOps0_fresh : (hostOps0 : List (HloOp τ sig (Elt F))).Forall fun op => op.fresh = ∅ := by
  simp only [List.Forall]; repeat' constructor

/-- @main is the host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten results of the host operations is found by the region as launched. -/
theorem V_of_not_written (c : Dev nD) (b : Ref sig .tc)
    (h0 : b ≠ main_v0) (h1 : b ≠ main_v1) (h2 : b ≠ main_v2) (h3 : b ≠ main_v3) (h4 : b ≠ main_v4)
    (h5 : b ≠ main_v5) (h6 : b ≠ main_v6) (h7 : b ≠ main_v7) (h8 : b ≠ main_v8) (h9 : b ≠ main_v9) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8,
      StableHlo.devRef_ne_of_ne h9⟩))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
/-- Input window 5's current staging buffer holds its block at every point, fetched there or not. -/
theorem before_in5 {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The body's accesses and what it leaves -/

/-- Each access of the body is of a whole staging buffer. -/
abbrev rA : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-- The new hidden state's block after the body, from the six input blocks: one store of the whole block. -/
def outH (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay2 (k0_pay3 (View.ld x0 rA) (View.ld x1 rA) (View.ld x3 rW) (View.ld x4 rW) (View.ld x5 rB))
    (k0_pay4 (View.ld x0 rA) (View.ld x1 rA) (View.ld x3 rW) (View.ld x4 rW) (View.ld x5 rB))
    (k0_pay5 (View.ld x0 rA) (View.ld x1 rA) (View.ld x3 rW) (View.ld x4 rW) (View.ld x5 rB))
    (k0_pay6 (View.ld x0 rA) (View.ld x1 rA) (View.ld x3 rW) (View.ld x4 rW) (View.ld x5 rB))
    k0_pay7 (View.ld x2 rA)⟩]

/-- The new cell state's block after the body, from the six input blocks: one store of the whole block. -/
def outC (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay1
    (k0_pay4 (View.ld x0 rA) (View.ld x1 rA) (View.ld x3 rW) (View.ld x4 rW) (View.ld x5 rB))
    (k0_pay5 (View.ld x0 rA) (View.ld x1 rA) (View.ld x3 rW) (View.ld x4 rW) (View.ld x5 rB))
    (k0_pay6 (View.ld x0 rA) (View.ld x1 rA) (View.ld x3 rW) (View.ld x4 rW) (View.ld x5 rB))
    k0_pay7 (View.ld x2 rA)⟩]

/-- The one store tiles the block, so it covers it. -/
theorem coverA (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 1000000 in
/-- The body on whole staging buffers, the inputs' at contents `xW` and the outputs' at anything, runs to the
    continuation holding the inputs' as they were and the outputs' at `outH`, `outC` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole)
    (x0 : Vec F S512x512 .f32) (x1 : Vec F S512x512 .f32) (x2 : Vec F S512x512 .f32) (x3 : Vec F S512x2048 .bf16) (x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverA _)
  iexists _; isplitr
  swap; · iexact H7
  ipureintro
  try dsimp only
  exact View.read_writes_eq_canon _ _ _ (coverA _)

/-! ## The pipeline's proof data -/

/-- The proof data of the pipeline on core `c`: the arrays as the region finds them; after the body at point `t`
    each input's buffer at its block and each output's at the body's term of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the pipeline library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the nineteen argument arrays are as they were launched: the three the region stages as inputs hold
    their entry contents, the sixteen it does not touch hold what the region found, and no host operation writes any
    of them. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans
      (V_of_not_written m c main_arg0 (by decide) (by decide) (by decide) (by decide) (by decide) (by decide) (by decide) (by decide) (by decide) (by decide)))),
    ((h c).1 1).trans (((dats m 0 c).arrAt_in 1 rfl _).trans ((A_eq m c 1).trans
      (V_of_not_written m c main_arg1 (by decide) (by decide) (by decide) (by decide) (by decide) (by decide) (by decide) (by decide) (by decide) (by decide)))),
    ((h c).1 2).trans (((dats m 0 c).arrAt_in 2 rfl _).trans ((A_eq m c 2).trans
      (V_of_not_written m c main_arg2 (by decide) (by decide) (by decide) (by decide) (by decide) (by decide) (by decide) (by decide) (by decide) (by decide)))),
    ((h c).2 main_arg3 (Pipeline.mem_restRefs_of main_arg3 (by decide) (by decide))).trans
      (V_of_not_written m c main_arg3 (by decide) (by decide) (by decide) (by decide) (by decide) (by decide) (by decide) (by decide) (by decide) (by decide)),
    ((h c).2 main_arg4 (Pipeline.mem_restRefs_of main_arg4 (by decide) (by decide))).trans
      (V_of_not_written m c main_arg4 (by decide) (by decide) (by decide) (by decide) (by decide) (by decide) (by decide) (by decide) (by decide) (by decide)),
    ((h c).2 main_arg5 (Pipeline.mem_restRefs_of main_arg5 (by decide) (by decide))).trans
      (V_of_not_written m c main_arg5 (by decide) (by decide) (by decide) (by decide) (by decide) (by decide) (by decide) (by decide) (by decide) (by decide)),
    ((h c).2 main_arg6 (Pipeline.mem_restRefs_of main_arg6 (by decide) (by decide))).trans
      (V_of_not_written m c main_arg6 (by decide) (by decide) (by decide) (by decide) (by decide) (by decide) (by decide) (by decide) (by decide) (by decide)),
    ((h c).2 main_arg7 (Pipeline.mem_restRefs_of main_arg7 (by decide) (by decide))).trans
      (V_of_not_written m c main_arg7 (by decide) (by decide) (by decide) (by decide) (by decide) (by decide) (by decide) (by decide) (by decide) (by decide)),
    ((h c).2 main_arg8 (Pipeline.mem_restRefs_of main_arg8 (by decide) (by decide))).trans
      (V_of_not_written m c main_arg8 (by decide) (by decide) (by decide) (by decide) (by decide) (by decide) (by decide) (by decide) (by decide) (by decide)),
    ((h c).2 main_arg9 (Pipeline.mem_restRefs_of main_arg9 (by decide) (by decide))).trans
      (V_of_not_written m c main_arg9 (by decide) (by decide) (by decide) (by decide) (by decide) (by decide) (by decide) (by decide) (by decide) (by decide)),
    ((h c).2 main_arg10 (Pipeline.mem_restRefs_of main_arg10 (by decide) (by decide))).trans
      (V_of_not_written m c main_arg10 (by decide) (by decide) (by decide) (by decide) (by decide) (by decide) (by decide) (by decide) (by decide) (by decide)),
    ((h c).2 main_arg11 (Pipeline.mem_restRefs_of main_arg11 (by decide) (by decide))).trans
      (V_of_not_written m c main_arg11 (by decide) (by decide) (by decide) (by decide) (by decide) (by decide) (by decide) (by decide) (by decide) (by decide)),
    ((h c).2 main_arg12 (Pipeline.mem_restRefs_of main_arg12 (by decide) (by decide))).trans
      (V_of_not_written m c main_arg12 (by decide) (by decide) (by decide) (by decide) (by decide) (by decide) (by decide) (by decide) (by decide) (by decide)),
    ((h c).2 main_arg13 (Pipeline.mem_restRefs_of main_arg13 (by decide) (by decide))).trans
      (V_of_not_written m c main_arg13 (by decide) (by decide) (by decide) (by decide) (by decide) (by decide) (by decide) (by decide) (by decide) (by decide)),
    ((h c).2 main_arg14 (Pipeline.mem_restRefs_of main_arg14 (by decide) (by decide))).trans
      (V_of_not_written m c main_arg14 (by decide) (by decide) (by decide) (by decide) (by decide) (by decide) (by decide) (by decide) (by decide) (by decide)),
    ((h c).2 main_arg15 (Pipeline.mem_restRefs_of main_arg15 (by decide) (by decide))).trans
      (V_of_not_written m c main_arg15 (by decide) (by decide) (by decide) (by decide) (by decide) (by decide) (by decide) (by decide) (by decide) (by decide)),
    ((h c).2 main_arg16 (Pipeline.mem_restRefs_of main_arg16 (by decide) (by decide))).trans
      (V_of_not_written m c main_arg16 (by decide) (by decide) (by decide) (by decide) (by decide) (by decide) (by decide) (by decide) (by decide) (by decide)),
    ((h c).2 main_arg17 (Pipeline.mem_restRefs_of main_arg17 (by decide) (by decide))).trans
      (V_of_not_written m c main_arg17 (by decide) (by decide) (by decide) (by decide) (by decide) (by decide) (by decide) (by decide) (by decide) (by decide)),
    ((h c).2 main_arg18 (Pipeline.mem_restRefs_of main_arg18 (by decide) (by decide))).trans
      (V_of_not_written m c main_arg18 (by decide) (by decide) (by decide) (by decide) (by decide) (by decide) (by decide) (by decide) (by decide) (by decide))⟩

/-- The frame: @main runs to the end and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept m r h c) (run_main m ρ)

end Cert.Kernel.Frm

end
-- ==== Proof.FrameIdeal.lean ====
/-
  The frame of the program `KernelIdeal`: its @main is ten host operations (two concatenations of four
  weight matrices along the columns, each rounded to bf16; four sums of two bias vectors,
  concatenated and reshaped to one row) followed by one pipelined region over 64 grid points.
  At point t the body reads rows 512·t … 512·t+511 of the three activation arrays, the two whole
  packed weight matrices and the bias row, and writes rows 512·t … 512·t+511 of the two results.
  Stated here, for any float instance: the buffers' contents when the region is entered (the fold
  of the host operations over the launch memory), each window's block at a point, what the body
  leaves in the two output blocks as one term of the six input blocks, the body's triple, the
  proof data of the pipeline, the run of @main to the pipeline library's post, and from it that
  every argument array ends as it was launched.
-/
import proofs.«110583_j3728031613360_2_alg».proof.Proof.Gen.KernelIdeal.Launch
import proofs.«110583_j3728031613360_2_alg».proof.Proof.Gen.KernelIdeal.Skeleton
import proofs.«110583_j3728031613360_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the ten host operations. -/
abbrev V (c : Dev nD) (b : Ref sig .tc) : Buf (Elt F) ((c : Thread nD τ).loc b) :=
  StableHlo.after hostOps0 (fun b => m (c, b)) b

/-- Every host operation determines what it writes. -/
theorem hostOps0_fresh : (hostOps0 : List (HloOp τ sig (Elt F))).Forall fun op => op.fresh = ∅ := by
  simp only [List.Forall]; repeat' constructor

/-- @main is the host operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten results of the host operations is found by the region as launched. -/
theorem V_of_not_written (c : Dev nD) (b : Ref sig .tc)
    (h0 : b ≠ main_v0) (h1 : b ≠ main_v1) (h2 : b ≠ main_v2) (h3 : b ≠ main_v3) (h4 : b ≠ main_v4)
    (h5 : b ≠ main_v5) (h6 : b ≠ main_v6) (h7 : b ≠ main_v7) (h8 : b ≠ main_v8) (h9 : b ≠ main_v9) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8,
      StableHlo.devRef_ne_of_ne h9⟩))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
/-- Input window 5's current staging buffer holds its block at every point, fetched there or not. -/
theorem before_in5 {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The body's accesses and what it leaves -/

/-- Each access of the body is of a whole staging buffer. -/
abbrev rA : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-- The new hidden state's block after the body, from the six input blocks: one store of the whole block. -/
def outH (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay2 (k0_pay3 (View.ld x0 rA) (View.ld x1 rA) (View.ld x3 rW) (View.ld x4 rW) (View.ld x5 rB))
    (k0_pay4 (View.ld x0 rA) (View.ld x1 rA) (View.ld x3 rW) (View.ld x4 rW) (View.ld x5 rB))
    (k0_pay5 (View.ld x0 rA) (View.ld x1 rA) (View.ld x3 rW) (View.ld x4 rW) (View.ld x5 rB))
    (k0_pay6 (View.ld x0 rA) (View.ld x1 rA) (View.ld x3 rW) (View.ld x4 rW) (View.ld x5 rB))
    k0_pay7 (View.ld x2 rA)⟩]

/-- The new cell state's block after the body, from the six input blocks: one store of the whole block. -/
def outC (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay1
    (k0_pay4 (View.ld x0 rA) (View.ld x1 rA) (View.ld x3 rW) (View.ld x4 rW) (View.ld x5 rB))
    (k0_pay5 (View.ld x0 rA) (View.ld x1 rA) (View.ld x3 rW) (View.ld x4 rW) (View.ld x5 rB))
    (k0_pay6 (View.ld x0 rA) (View.ld x1 rA) (View.ld x3 rW) (View.ld x4 rW) (View.ld x5 rB))
    k0_pay7 (View.ld x2 rA)⟩]

/-- The one store tiles the block, so it covers it. -/
theorem coverA (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 1000000 in
/-- The body on whole staging buffers, the inputs' at contents `xW` and the outputs' at anything, runs to the
    continuation holding the inputs' as they were and the outputs' at `outH`, `outC` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole)
    (x0 : Vec F S512x512 .f32) (x1 : Vec F S512x512 .f32) (x2 : Vec F S512x512 .f32) (x3 : Vec F S512x2048 .bf16) (x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverA _)
  iexists _; isplitr
  swap; · iexact H7
  ipureintro
  try dsimp only
  exact View.read_writes_eq_canon _ _ _ (coverA _)

/-! ## The pipeline's proof data -/

/-- The proof data of the pipeline on core `c`: the arrays as the region finds them; after the body at point `t`
    each input's buffer at its block and each output's at the body's term of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the pipeline library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the nineteen argument arrays are as they were launched: the three the region stages as inputs hold
    their entry contents, the sixteen it does not touch hold what the region found, and no host operation writes any
    of them. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats m 0 c).arrAt_in 0 rfl _).trans ((A_eq m c 0).trans
      (V_of_not_written m c main_arg0 (by decide) (by decide) (by decide) (by decide) (by decide) (by decide) (by decide) (by decide) (by decide) (by decide)))),
    ((h c).1 1).trans (((dats m 0 c).arrAt_in 1 rfl _).trans ((A_eq m c 1).trans
      (V_of_not_written m c main_arg1 (by decide) (by decide) (by decide) (by decide) (by decide) (by decide) (by decide) (by decide) (by decide) (by decide)))),
    ((h c).1 2).trans (((dats m 0 c).arrAt_in 2 rfl _).trans ((A_eq m c 2).trans
      (V_of_not_written m c main_arg2 (by decide) (by decide) (by decide) (by decide) (by decide) (by decide) (by decide) (by decide) (by decide) (by decide)))),
    ((h c).2 main_arg3 (Pipeline.mem_restRefs_of main_arg3 (by decide) (by decide))).trans
      (V_of_not_written m c main_arg3 (by decide) (by decide) (by decide) (by decide) (by decide) (by decide) (by decide) (by decide) (by decide) (by decide)),
    ((h c).2 main_arg4 (Pipeline.mem_restRefs_of main_arg4 (by decide) (by decide))).trans
      (V_of_not_written m c main_arg4 (by decide) (by decide) (by decide) (by decide) (by decide) (by decide) (by decide) (by decide) (by decide) (by decide)),
    ((h c).2 main_arg5 (Pipeline.mem_restRefs_of main_arg5 (by decide) (by decide))).trans
      (V_of_not_written m c main_arg5 (by decide) (by decide) (by decide) (by decide) (by decide) (by decide) (by decide) (by decide) (by decide) (by decide)),
    ((h c).2 main_arg6 (Pipeline.mem_restRefs_of main_arg6 (by decide) (by decide))).trans
      (V_of_not_written m c main_arg6 (by decide) (by decide) (by decide) (by decide) (by decide) (by decide) (by decide) (by decide) (by decide) (by decide)),
    ((h c).2 main_arg7 (Pipeline.mem_restRefs_of main_arg7 (by decide) (by decide))).trans
      (V_of_not_written m c main_arg7 (by decide) (by decide) (by decide) (by decide) (by decide) (by decide) (by decide) (by decide) (by decide) (by decide)),
    ((h c).2 main_arg8 (Pipeline.mem_restRefs_of main_arg8 (by decide) (by decide))).trans
      (V_of_not_written m c main_arg8 (by decide) (by decide) (by decide) (by decide) (by decide) (by decide) (by decide) (by decide) (by decide) (by decide)),
    ((h c).2 main_arg9 (Pipeline.mem_restRefs_of main_arg9 (by decide) (by decide))).trans
      (V_of_not_written m c main_arg9 (by decide) (by decide) (by decide) (by decide) (by decide) (by decide) (by decide) (by decide) (by decide) (by decide)),
    ((h c).2 main_arg10 (Pipeline.mem_restRefs_of main_arg10 (by decide) (by decide))).trans
      (V_of_not_written m c main_arg10 (by decide) (by decide) (by decide) (by decide) (by decide) (by decide) (by decide) (by decide) (by decide) (by decide)),
    ((h c).2 main_arg11 (Pipeline.mem_restRefs_of main_arg11 (by decide) (by decide))).trans
      (V_of_not_written m c main_arg11 (by decide) (by decide) (by decide) (by decide) (by decide) (by decide) (by decide) (by decide) (by decide) (by decide)),
    ((h c).2 main_arg12 (Pipeline.mem_restRefs_of main_arg12 (by decide) (by decide))).trans
      (V_of_not_written m c main_arg12 (by decide) (by decide) (by decide) (by decide) (by decide) (by decide) (by decide) (by decide) (by decide) (by decide)),
    ((h c).2 main_arg13 (Pipeline.mem_restRefs_of main_arg13 (by decide) (by decide))).trans
      (V_of_not_written m c main_arg13 (by decide) (by decide) (by decide) (by decide) (by decide) (by decide) (by decide) (by decide) (by decide) (by decide)),
    ((h c).2 main_arg14 (Pipeline.mem_restRefs_of main_arg14 (by decide) (by decide))).trans
      (V_of_not_written m c main_arg14 (by decide) (by decide) (by decide) (by decide) (by decide) (by decide) (by decide) (by decide) (by decide) (by decide)),
    ((h c).2 main_arg15 (Pipeline.mem_restRefs_of main_arg15 (by decide) (by decide))).trans
      (V_of_not_written m c main_arg15 (by decide) (by decide) (by decide) (by decide) (by decide) (by decide) (by decide) (by decide) (by decide) (by decide)),
    ((h c).2 main_arg16 (Pipeline.mem_restRefs_of main_arg16 (by decide) (by decide))).trans
      (V_of_not_written m c main_arg16 (by decide) (by decide) (by decide) (by decide) (by decide) (by decide) (by decide) (by decide) (by decide) (by decide)),
    ((h c).2 main_arg17 (Pipeline.mem_restRefs_of main_arg17 (by decide) (by decide))).trans
      (V_of_not_written m c main_arg17 (by decide) (by decide) (by decide) (by decide) (by decide) (by decide) (by decide) (by decide) (by decide) (by decide)),
    ((h c).2 main_arg18 (Pipeline.mem_restRefs_of main_arg18 (by decide) (by decide))).trans
      (V_of_not_written m c main_arg18 (by decide) (by decide) (by decide) (by decide) (by decide) (by decide) (by decide) (by decide) (by decide) (by decide))⟩

/-- The frame: @main runs to the end and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept m r h c) (run_main m ρ)

end Cert.KernelIdeal.Frm

end
-- ==== Proof.Spec.lean ====
/-
  The LSTM cell as one function of its rows, over the extended reals.
  For one batch row: the pre-activation of gate column j is
      z j = (Σₖ x k · Wx k j + Σₖ h k · Wh k j) + b j        (j < 2048 = 4 · 512),
  the four gates of hidden unit q are the logistic function σ of z at columns q, 512+q, 1024+q and
  1536+q (input, forget, cell candidate, output; the candidate uses σ here, as both programs do),
      c' q = σ(z (512+q)) · c q + σ(z q) · σ(z (1024+q)),      h' q = σ(z (1536+q)) · tanh(c' q).
  One program computes σ z as 1 / (1 + exp(−z)), the other as ½ · (tanh(½ · z) + 1): the same
  extended real for every z, the two infinities included (σ(+∞) = 1, σ(−∞) = 0 either way), so no
  finiteness of the inputs is needed anywhere.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-! ## The two float constants -/

/-- The pattern of `0.5` denotes the real one half. -/
theorem ofBits_half : Ideal.ofBits .f32 0x3F000000#32 = (((1 : ℝ) / 2 : ℝ) : EReal) := by
  simp [Ideal.ofBits, Ideal.ieee, -EReal.coe_mul]; norm_num

/-- The pattern of `1.0` denotes one. -/
theorem ofBits_one : Ideal.ofBits .f32 0x3F800000#32 = 1 := by
  simp [Ideal.ofBits, Ideal.ieee, -EReal.coe_mul]; norm_num

/-! ## The logistic function, in both spellings -/

/-- The logistic function as a quotient: `1 / (1 + exp (−z))`. -/
def logistic (z : EReal) : EReal := Ideal.div 1 (1 + Ideal.exp (-z))

/-- On the reals: `½ · (tanh (½ r) + 1) = (1 + exp (−r))⁻¹`. With `a = exp (r/2)` both sides are `a² / (a² + 1)`. -/
theorem real_half_tanh (r : ℝ) : (1 / 2 : ℝ) * (Real.tanh ((1 / 2 : ℝ) * r) + 1) = (1 + Real.exp (-r))⁻¹ := by
  have ha : 0 < Real.exp ((1 / 2 : ℝ) * r) := Real.exp_pos _
  have h1 : Real.exp (-((1 / 2 : ℝ) * r)) = (Real.exp ((1 / 2 : ℝ) * r))⁻¹ := Real.exp_neg _
  have h2 : Real.exp (-r) = (Real.exp ((1 / 2 : ℝ) * r))⁻¹ * (Real.exp ((1 / 2 : ℝ) * r))⁻¹ := by
    rw [← h1, ← Real.exp_add]; congr 1; ring
  rw [Real.tanh_eq_sinh_div_cosh, Real.sinh_eq, Real.cosh_eq, h1, h2]
  set a := Real.exp ((1 / 2 : ℝ) * r) with hadef
  have hne : a ≠ 0 := ne_of_gt ha
  have hpos : 0 < a * a + 1 := by positivity
  field_simp
  ring

/-- The half-angle spelling of the logistic function agrees with the quotient at every extended real. -/
theorem half_tanh_eq_logistic (z : EReal) :
    (((1 : ℝ) / 2 : ℝ) : EReal) * (Ideal.tanh ((((1 : ℝ) / 2 : ℝ) : EReal) * z) + 1) = logistic z := by
  induction z using EReal.rec with
  | bot =>
    have hb : (((1 : ℝ) / 2 : ℝ) : EReal) * ⊥ = ⊥ := EReal.coe_mul_bot_of_pos (by norm_num)
    have h1 : (1 : EReal) + ⊤ = ⊤ := by rw [← EReal.coe_one]; exact EReal.coe_add_top 1
    have h2 : (-1 : EReal) + 1 = 0 := by
      rw [← EReal.coe_one, ← EReal.coe_neg, ← EReal.coe_add]; norm_num
    rw [hb, logistic, Ideal.tanh_bot, h2, mul_zero, EReal.neg_bot, Ideal.exp_top, h1, Ideal.div,
      if_neg EReal.top_ne_zero, EReal.inv_top, mul_zero]
  | top =>
    have ht : (((1 : ℝ) / 2 : ℝ) : EReal) * ⊤ = ⊤ := EReal.coe_mul_top_of_pos (by norm_num)
    have h1 : (((1 : ℝ) / 2 : ℝ) : EReal) * ((1 : EReal) + 1) = 1 := by
      rw [← EReal.coe_one, ← EReal.coe_add, ← EReal.coe_mul]; norm_num
    have h3 : (1 : EReal) ≠ 0 := one_ne_zero
    rw [ht, logistic, Ideal.tanh_top, h1, EReal.neg_top, Ideal.exp_bot, add_zero, Ideal.div, if_neg h3,
      ← EReal.coe_one, ← EReal.coe_inv, ← EReal.coe_mul]
    norm_num
  | coe r =>
    have hpos : 0 < 1 + Real.exp (-r) := by positivity
    have hne : ((1 + Real.exp (-r) : ℝ) : EReal) ≠ 0 := by exact_mod_cast ne_of_gt hpos
    have hden : (1 : EReal) + Ideal.exp (-(r : EReal)) = ((1 + Real.exp (-r) : ℝ) : EReal) := by
      rw [← EReal.coe_neg, Ideal.exp_coe, ← EReal.coe_one, ← EReal.coe_add]
    rw [logistic, hden, Ideal.div, if_neg hne, ← EReal.coe_inv, one_mul, ← EReal.coe_mul, Ideal.tanh_coe,
      ← EReal.coe_one, ← EReal.coe_add, ← EReal.coe_mul]
    exact congrArg _ (real_half_tanh r)

/-! ## One row of the cell -/

/-- The pre-activation of gate column `j`: the two products' sum, then the bias. -/
def pre (xr hr : Fin 512 → EReal) (wx wh : Fin 512 → Fin 2048 → EReal) (b : Fin 2048 → EReal) (j : Fin 2048) : EReal :=
  (∑ k : Fin 512, xr k * wx k j + ∑ k : Fin 512, hr k * wh k j) + b j

/-- Column `512·g + q` of the packed gates: gate `g`'s pre-activation for hidden unit `q`. -/
def col (g : Fin 4) (q : Fin 512) : Fin 2048 := ⟨512 * g.val + q.val, by omega⟩

/-- The new cell state of hidden unit `q`. -/
def cRow (xr hr cr : Fin 512 → EReal) (wx wh : Fin 512 → Fin 2048 → EReal) (b : Fin 2048 → EReal) (q : Fin 512) : EReal :=
  logistic (pre xr hr wx wh b (col 1 q)) * cr q + logistic (pre xr hr wx wh b (col 0 q)) * logistic (pre xr hr wx wh b (col 2 q))

/-- The new hidden state of hidden unit `q`. -/
def hRow (xr hr cr : Fin 512 → EReal) (wx wh : Fin 512 → Fin 2048 → EReal) (b : Fin 2048 → EReal) (q : Fin 512) : EReal :=
  logistic (pre xr hr wx wh b (col 3 q)) * Ideal.tanh (cRow xr hr cr wx wh b q)

/-! ## The whole arrays -/

abbrev SX : Shape := ⟨2, ![32768, 512]⟩
abbrev SW : Shape := ⟨2, ![512, 2048]⟩
abbrev SB : Shape := ⟨1, ![2048]⟩

abbrev SQ : Shape := ⟨2, ![512, 512]⟩
abbrev SV : Shape := ⟨1, ![512]⟩

theorem catW_ok : Shape.Concatenates [SQ, SQ, SQ, SQ] SW 1 := by decide
theorem catB_ok : Shape.Concatenates [SV, SV, SV, SV] SB 0 := by decide

/-- Four gate weight matrices side by side: the packed weight matrix. Both programs build it so; it is never opened. -/
def catW (a b c d : SQ.Idx → EReal) : SW.Idx → EReal :=
  concatenate SW 1 [⟨SQ, a⟩, ⟨SQ, b⟩, ⟨SQ, c⟩, ⟨SQ, d⟩] catW_ok

/-- The four gates' biases, each the sum of its two bias vectors, end to end: the packed bias. Never opened either. -/
def catB (a a' b b' c c' d d' : SV.Idx → EReal) : SB.Idx → EReal :=
  concatenate SB 0 [⟨SV, fun i => a i + a' i⟩, ⟨SV, fun i => b i + b' i⟩, ⟨SV, fun i => c i + c' i⟩,
    ⟨SV, fun i => d i + d' i⟩] catB_ok

/-- The new cell state of the whole batch: row `p` of the result from row `p` of the three activation arrays. -/
def GC (x h c : SX.Idx → EReal) (wx wh : SW.Idx → EReal) (b : SB.Idx → EReal) : SX.Idx → EReal := fun i =>
  cRow (fun k => x (ix2 (i 0) k)) (fun k => h (ix2 (i 0) k)) (fun q => c (ix2 (i 0) q))
    (fun k j => wx (ix2 k j)) (fun k j => wh (ix2 k j)) (fun j => b (ix1 j)) (i 1)

/-- The new hidden state of the whole batch. -/
def GH (x h c : SX.Idx → EReal) (wx wh : SW.Idx → EReal) (b : SB.Idx → EReal) : SX.Idx → EReal := fun i =>
  hRow (fun k => x (ix2 (i 0) k)) (fun k => h (ix2 (i 0) k)) (fun q => c (ix2 (i 0) q))
    (fun k j => wx (ix2 k j)) (fun k j => wh (ix2 k j)) (fun j => b (ix1 j)) (i 1)

end Cert.Lstm

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.KernelPay.lean ====
/-
  The body's arithmetic at an index, on the extended reals. The body's stored values are pure terms of the six
  blocks it loads; read at row r and hidden unit q of the block they are the LSTM cell of row r: the packed
  pre-activation is the two matrix products of the row with the whole weight matrices plus the bias row, each
  gate is ½ · (tanh(½ · z) + 1) of its 512-column slice, which is the logistic function of z, and the two stored
  blocks are the new cell state and the new hidden state of the row.
-/
import proofs.«110583_j3728031613360_2_alg».proof.Proof.Gen.KernelIdeal.Skeleton
import proofs.«110583_j3728031613360_2_alg».proof.Proof.Spec
import proofs.«110583_j3728031613360_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open Cert.Lstm Cert.Lib.PlainMatmul

/-- Row `r` of an activation block. -/
abbrev rowOf (v : Vec Ideal S512x512 .f32) (r : Fin 512) : Fin 512 → EReal := fun k => v (ix2 r k)
/-- A packed weight matrix by coordinates. -/
abbrev matOf (w : Vec Ideal S512x2048 .bf16) : Fin 512 → Fin 2048 → EReal := fun k j => w (ix2 k j)
/-- The bias row by its column. -/
abbrev biasOf (b : Vec Ideal S1x2048 .f32) : Fin 2048 → EReal := fun j => b (ix2 (0 : Fin 1) j)

variable (v0 v2 v47 : Vec Ideal S512x512 .f32) (v4 v7 : Vec Ideal S512x2048 .bf16) (v11 : Vec Ideal S1x2048 .f32)

/-- The packed pre-activation at row `r`, column `j`: the rounding to bf16 is the identity on the extended reals,
    each matrix product into the zero accumulator is its contraction sum, the bias row is broadcast down the rows. -/
theorem pre_apply (r : Fin 512) (j : Fin 2048) :
    k0_pay3 (F := Ideal) v0 v2 v4 v7 v11 (ix2 r j)
      = pre (rowOf v0 r) (rowOf v2 r) (matOf v4) (matOf v7) (biasOf v11) j := by
  unfold k0_pay3
  refine congrArg₂ (· + ·) (congrArg₂ (· + ·) ?_ ?_) ?_
  · exact (plain_matmul_zero_apply (truncf .bf16 v0 bitsLt_bf16_f32)
      (shapeCast S512x2048 v4 shapeCasts_S512x2048_S512x2048) r j).trans
      (Finset.sum_congr rfl fun k _ => by rw [shapeCast_self]; rfl)
  · exact (plain_matmul_zero_apply (truncf .bf16 v2 bitsLt_bf16_f32)
      (shapeCast S512x2048 v7 shapeCasts_S512x2048_S512x2048) r j).trans
      (Finset.sum_congr rfl fun k _ => by rw [shapeCast_self]; rfl)
  · exact (broadcastTo_1b_ab_apply _ broadcasts_S1x2048_S512x2048 r j).trans (by rw [shapeCast_self])

/-- The gate chain on a vector, at an index: ½ · (tanh(½ · u) + 1) is the logistic function of u. -/
theorem halfTanh_apply (u : FVec Ideal S512x512 .f32) (i : S512x512.Idx) :
    mulf (broadcast S512x512 (Scalar.ofBits (F := Ideal) .f32 0x3F000000#32))
      (addf (tanh (mulf (broadcast S512x512 (Scalar.ofBits (F := Ideal) .f32 0x3F000000#32)) u))
        (broadcast S512x512 (Scalar.ofBits (F := Ideal) .f32 0x3F800000#32))) i = logistic (u i) := by
  show Ideal.ofBits .f32 0x3F000000#32 * (Ideal.tanh (Ideal.ofBits .f32 0x3F000000#32 * u i) + Ideal.ofBits .f32 0x3F800000#32) = _
  rw [ofBits_half, ofBits_one, half_tanh_eq_logistic]

/-- Gate `g`'s slice of the packed pre-activation: columns 512·g … 512·g + 511. -/
theorem slice_apply (g : Fin 4) (h : S512x2048.Slices ![0, 512 * g.val] S512x512) (r q : Fin 512) :
    extractStridedSlice S512x512 ![0, 512 * g.val] (k0_pay3 (F := Ideal) v0 v2 v4 v7 v11) h (ix2 r q)
      = pre (rowOf v0 r) (rowOf v2 r) (matOf v4) (matOf v7) (biasOf v11) (col g q) :=
  (extractStridedSlice_apply _ _ h (ix2 r q) (ix2 r (col g q)) (fun a => match a with
    | ⟨0, _⟩ => by show r.val = 0 + r.val; omega
    | ⟨1, _⟩ => by show 512 * g.val + q.val = 512 * g.val + q.val; rfl)).trans (pre_apply v0 v2 v4 v7 v11 r (col g q))

/-- The input gate. -/
theorem gate0_apply (r q : Fin 512) :
    k0_pay4 (F := Ideal) v0 v2 v4 v7 v11 (ix2 r q)
      = logistic (pre (rowOf v0 r) (rowOf v2 r) (matOf v4) (matOf v7) (biasOf v11) (col 0 q)) := by
  unfold k0_pay4
  exact (halfTanh_apply _ _).trans (congrArg logistic (slice_apply v0 v2 v4 v7 v11 0 slices_S512x2048_o0_0_S512x512 r q))

/-- The forget gate. -/
theorem gate1_apply (r q : Fin 512) :
    k0_pay5 (F := Ideal) v0 v2 v4 v7 v11 (ix2 r q)
      = logistic (pre (rowOf v0 r) (rowOf v2 r) (matOf v4) (matOf v7) (biasOf v11) (col 1 q)) := by
  unfold k0_pay5
  exact (halfTanh_apply _ _).trans (congrArg logistic (slice_apply v0 v2 v4 v7 v11 1 slices_S512x2048_o0_512_S512x512 r q))

/-- The cell candidate: the body keeps its outer factor ½ apart (`k0_pay7`) and multiplies it in later. -/
theorem gate2_apply (r q : Fin 512) :
    mulf (k0_pay7 (F := Ideal)) (k0_pay6 (F := Ideal) v0 v2 v4 v7 v11) (ix2 r q)
      = logistic (pre (rowOf v0 r) (rowOf v2 r) (matOf v4) (matOf v7) (biasOf v11) (col 2 q)) := by
  unfold k0_pay7 k0_pay6
  exact (halfTanh_apply _ _).trans (congrArg logistic (slice_apply v0 v2 v4 v7 v11 2 slices_S512x2048_o0_1024_S512x512 r q))

/-- The stored new cell state at row `r`, hidden unit `q`. -/
theorem cell_apply (r q : Fin 512) :
    k0_pay1 (F := Ideal) (k0_pay4 v0 v2 v4 v7 v11) (k0_pay5 v0 v2 v4 v7 v11) (k0_pay6 v0 v2 v4 v7 v11) k0_pay7 v47 (ix2 r q)
      = cRow (rowOf v0 r) (rowOf v2 r) (rowOf v47 r) (matOf v4) (matOf v7) (biasOf v11) q := by
  unfold k0_pay1
  show k0_pay5 (F := Ideal) v0 v2 v4 v7 v11 (ix2 r q) * v47 (ix2 r q)
      + k0_pay4 (F := Ideal) v0 v2 v4 v7 v11 (ix2 r q)
        * mulf (k0_pay7 (F := Ideal)) (k0_pay6 (F := Ideal) v0 v2 v4 v7 v11) (ix2 r q) = _
  rw [gate1_apply, gate0_apply, gate2_apply]
  rfl

/-- The stored new hidden state at row `r`, hidden unit `q`. -/
theorem hidden_apply (r q : Fin 512) :
    k0_pay2 (F := Ideal) (k0_pay3 v0 v2 v4 v7 v11) (k0_pay4 v0 v2 v4 v7 v11) (k0_pay5 v0 v2 v4 v7 v11)
        (k0_pay6 v0 v2 v4 v7 v11) k0_pay7 v47 (ix2 r q)
      = hRow (rowOf v0 r) (rowOf v2 r) (rowOf v47 r) (matOf v4) (matOf v7) (biasOf v11) q := by
  unfold k0_pay2
  refine (congrArg₂ (· * ·) ((halfTanh_apply _ _).trans
    (congrArg logistic (slice_apply v0 v2 v4 v7 v11 3 slices_S512x2048_o0_1536_S512x512 r q)))
    (congrArg Ideal.tanh (cell_apply v0 v2 v47 v4 v7 v11 r q))).trans ?_
  rfl

end Cert.KernelIdeal.Pay

end
-- ==== Proof.KernelValue.lean ====
/-
  From the blocks to the arrays. At grid point t the region writes rows 512·t … 512·t + 511 of the two results;
  what it writes is the body's term of the six input blocks at t, and those are rows 512·t … of the three
  activation arrays, the two whole packed weight matrices and the packed bias row. Read at (r, q) the term is the
  LSTM cell of row 512·t + r, so point t writes block t of ONE function of the argument arrays; the 64 blocks
  tile the arrays (row p lies in block p / 512), hence after the run each result array is that function.
-/
import proofs.«110583_j3728031613360_2_alg».proof.Proof.FrameIdeal
import proofs.«110583_j3728031613360_2_alg».proof.Proof.KernelPay
import Idealize.ShloMosaic.Lib.Pipeline.Value
import Idealize.ShloMosaic.Lib.StableHlo.Run
import Idealize.ShloMosaic.Lib.ValueLayout

noncomputable section

namespace Cert.KernelIdeal.Val

open Cert.KernelIdeal Cert.KernelIdeal.Gen Cert.KernelIdeal.Frm Cert.KernelIdeal.Pay
open Idealize.ShloMosaic Idealize.ShloMosaic.TcCoe Idealize.SL.Sem Idealize.ShloMosaic.ValueIdx Idealize.ShloMosaic.StableHlo
open Idealize.ShloMosaic.Pipeline (Dat)
open Cert.Lstm

variable (m : (ℓ : Loc nD τ sig) → Buf (Elt Ideal) ℓ) (ρ : Dev nD → PrngReg)

/-! ## What the host operations leave for the region -/

/-- The packed input-to-hidden weights. -/
def Wx (c : Dev nD) : SW.Idx → EReal := catW (m ((c : Thread nD τ).loc main_arg3)) (m ((c : Thread nD τ).loc main_arg7)) (m ((c : Thread nD τ).loc main_arg11)) (m ((c : Thread nD τ).loc main_arg15))
/-- The packed hidden-to-hidden weights. -/
def Wh (c : Dev nD) : SW.Idx → EReal := catW (m ((c : Thread nD τ).loc main_arg4)) (m ((c : Thread nD τ).loc main_arg8)) (m ((c : Thread nD τ).loc main_arg12)) (m ((c : Thread nD τ).loc main_arg16))
/-- The packed bias. -/
def Bk (c : Dev nD) : SB.Idx → EReal :=
  catB (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) (m ((c : Thread nD τ).loc main_arg17)) (m ((c : Thread nD τ).loc main_arg18))

/-- The region finds the first packed weight matrix in its fourth window's array (the rounding to bf16 is the identity). -/
theorem V_v1 (c : Dev nD) : (V m c main_v1 : S512x2048.Idx → EReal) = Wx m c := by
  dsimp only [V, hostOps0]; after_results; rfl

/-- The second packed weight matrix, in the fifth window's array. -/
theorem V_v3 (c : Dev nD) : (V m c main_v3 : S512x2048.Idx → EReal) = Wh m c := by
  dsimp only [V, hostOps0]; after_results; rfl

/-- The packed bias as one row, in the sixth window's array. -/
theorem V_v9 (c : Dev nD) :
    (V m c main_v9 : S1x2048.Idx → EReal) = shapeCast S1x2048 (Bk m c) shapeCasts_S2048_S1x2048 := by
  dsimp only [V, hostOps0]; after_results; rfl

/-! ## The index maps, decided over the grid -/

theorem hz : (![0, 0] : Fin 2 → Nat) = fun _ => 0 := funext fun a => by fin_cases a <;> rfl

/-- The three activation windows and the two result windows move down one block of rows per point; the weight and
    bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 64 := lt_of_lt_of_eq t.isLt N_0

/-- Row `r` of block `t` is row `512·t + r` of the array. -/
def rowAt (t : Fin cfg0.N) (r : Fin 512) : Fin 32768 := ⟨512 * t.val + r.val, by have := t_lt t; omega⟩

/-! ## The input blocks, read where the block sits -/

/-- Activation window 0's block at point `t`, at row `r`, column `k`: the argument array at row `512·t + r`. -/
theorem read0 (c : Dev nD) (t : Fin cfg0.N) (r k : Fin 512) :
    iblk m c 0 t (ix2 r k) = (m ((c : Thread nD τ).loc main_arg0)) (ix2 (rowAt t r) k) := by
  obtain ⟨e00, e01, e10, e11, e20, e21, -⟩ := idx_facts t
  show V m c main_arg0 (((cfg0.win 0).blk t).view.emb (ix2 r k)) = _
  rw [V_of_not_written m c main_arg0 (by decide) (by decide) (by decide) (by decide) (by decide) (by decide) (by decide) (by decide) (by decide) (by decide)]
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 512 + 1 * k.val = k.val; omega

/-- Activation window 1's block at point `t`, at row `r`, column `k`: the argument array at row `512·t + r`. -/
theorem read1 (c : Dev nD) (t : Fin cfg0.N) (r k : Fin 512) :
    iblk m c 1 t (ix2 r k) = (m ((c : Thread nD τ).loc main_arg1)) (ix2 (rowAt t r) k) := by
  obtain ⟨e00, e01, e10, e11, e20, e21, -⟩ := idx_facts t
  show V m c main_arg1 (((cfg0.win 1).blk t).view.emb (ix2 r k)) = _
  rw [V_of_not_written m c main_arg1 (by decide) (by decide) (by decide) (by decide) (by decide) (by decide) (by decide) (by decide) (by decide) (by decide)]
  refine congrArg _ (funext fun a => Fin.ext ?_)
  match a with
  | ⟨0, _⟩ => show win0_1.index t (0 : Fin 2) * 512 + 1 * r.val = 512 * t.val + r.val; omega
  | ⟨1, _⟩ => show win0_1.index t (1 : Fin 2) * 512 + 1 * k.val = k.val; omega

/-- Activation window 2's block at point `t`, at row `r`, column `k`: the argument array at row `512·t + r`. -/
theorem read2 (c : Dev nD) (t : Fin cfg0.N) (r k : Fin 512) :
    iblk m c 2 t (ix2 r k) = (m ((c : Thread nD τ).loc main_arg2)) (ix2 (rowAt t r) k) := by
  obtain ⟨e00, e01, e10, e11, e20, e21, -⟩ := idx_facts t
  show V m c main_arg2 (((cfg0.win 2).blk t).view.emb (ix2 r k)) = _
  rw [V_of_not_written m c main_arg2 (by decide) (by decide) (by decide) (by decide) (by decide) (by decide) (by decide) (by decide) (by decide) (by decide)]
  refine congrArg _ (funext fun a => Fin.ext ?_)
  match a with
  | ⟨0, _⟩ => show win0_2.index t (0 : Fin 2) * 512 + 1 * r.val = 512 * t.val + r.val; omega
  | ⟨1, _⟩ => show win0_2.index t (1 : Fin 2) * 512 + 1 * k.val = k.val; omega

/-- The first weight window's block is the whole packed matrix at every point. -/
theorem read3 (c : Dev nD) (t : Fin cfg0.N) (k : Fin 512) (j : Fin 2048) :
    iblk m c 3 t (ix2 k j) = Wx m c (ix2 k j) := by
  obtain ⟨-, -, -, -, -, -, e30, e31, -⟩ := idx_facts t
  show V m c main_v1 (((cfg0.win 3).blk t).view.emb (ix2 k j)) = _
  rw [V_v1]
  refine congrArg _ (funext fun a => Fin.ext ?_)
  match a with
  | ⟨0, _⟩ => show win0_3.index t (0 : Fin 2) * 512 + 1 * k.val = k.val; omega
  | ⟨1, _⟩ => show win0_3.index t (1 : Fin 2) * 2048 + 1 * j.val = j.val; omega

/-- The second weight window's block is the whole packed matrix at every point. -/
theorem read4 (c : Dev nD) (t : Fin cfg0.N) (k : Fin 512) (j : Fin 2048) :
    iblk m c 4 t (ix2 k j) = Wh m c (ix2 k j) := by
  obtain ⟨-, -, -, -, -, -, -, -, e40, e41, -⟩ := idx_facts t
  show V m c main_v3 (((cfg0.win 4).blk t).view.emb (ix2 k j)) = _
  rw [V_v3]
  refine congrArg _ (funext fun a => Fin.ext ?_)
  match a with
  | ⟨0, _⟩ => show win0_4.index t (0 : Fin 2) * 512 + 1 * k.val = k.val; omega
  | ⟨1, _⟩ => show win0_4.index t (1 : Fin 2) * 2048 + 1 * j.val = j.val; omega

/-- The bias window's block is the packed bias row at every point. -/
theorem read5 (c : Dev nD) (t : Fin cfg0.N) (j : Fin 2048) :
    iblk m c 5 t (ix2 (0 : Fin 1) j) = Bk m c (ix1 j) := by
  obtain ⟨-, -, -, -, -, -, -, -, -, -, e50, e51, -⟩ := idx_facts t
  show V m c main_v9 (((cfg0.win 5).blk t).view.emb (ix2 (0 : Fin 1) j)) = _
  rw [V_v9]
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 2048 + 1 * j.val = j.val; omega)
  rw [e]
  exact shapeCast_a_1a_apply (Bk m c) shapeCasts_S2048_S1x2048 (0 : Fin 1) j

/-! ## What a point writes back -/

/-- The new hidden state of the whole batch, of the argument arrays. -/
def GHk (c : Dev nD) : SX.Idx → EReal := GH (m ((c : Thread nD τ).loc main_arg0)) (m ((c : Thread nD τ).loc main_arg1)) (m ((c : Thread nD τ).loc main_arg2)) (Wx m c) (Wh m c) (Bk m c)
/-- The new cell state of the whole batch, of the argument arrays. -/
def GCk (c : Dev nD) : SX.Idx → EReal := GC (m ((c : Thread nD τ).loc main_arg0)) (m ((c : Thread nD τ).loc main_arg1)) (m ((c : Thread nD τ).loc main_arg2)) (Wx m c) (Wh m c) (Bk m c)

/-- The rows the cell of block row `r` at point `t` depends on are those of array row `512·t + r`. -/
theorem rows_eq (c : Dev nD) (t : Fin cfg0.N) (r : Fin 512) :
    rowOf (iblk m c 0 t) r = (fun k => (m ((c : Thread nD τ).loc main_arg0)) (ix2 (rowAt t r) k))
    ∧ rowOf (iblk m c 1 t) r = (fun k => (m ((c : Thread nD τ).loc main_arg1)) (ix2 (rowAt t r) k))
    ∧ rowOf (iblk m c 2 t) r = (fun k => (m ((c : Thread nD τ).loc main_arg2)) (ix2 (rowAt t r) k))
    ∧ matOf (iblk m c 3 t) = (fun k j => Wx m c (ix2 k j))
    ∧ matOf (iblk m c 4 t) = (fun k j => Wh m c (ix2 k j))
    ∧ biasOf (iblk m c 5 t) = (fun j => Bk m c (ix1 j)) :=
  ⟨funext fun k => read0 m c t r k, funext fun k => read1 m c t r k, funext fun k => read2 m c t r k,
    funext fun k => funext fun j => read3 m c t k j, funext fun k => funext fun j => read4 m c t k j,
    funext fun j => read5 m c t j⟩

/-- Point `t` writes back block `t` of the new hidden state of the whole batch. -/
theorem flushedH (c : Dev nD) (t : Fin cfg0.N) :
    (dats m 0 c).flushed 6 t = ((cfg0.win 6).blk t).view.read (Elt Ideal) (GHk m c) := by
  show (cfg0.win 6).cut (grid0.coords t) ((dats m 0 c).after 6 t) = _
  rw [after6]
  unfold outH
  rw [View.canon_unit_zero hz]
  simp only [View.ld_unit_zero (S := S512x512) hz, View.ld_unit_zero (S := S512x2048) hz, View.ld_unit_zero (S := S1x2048) hz]
  obtain ⟨-, -, -, -, -, -, -, -, -, -, -, -, e60, e61, e70, e71⟩ := idx_facts t
  funext y
  obtain ⟨r, q, rfl⟩ : ∃ (r q : Fin 512), y = ix2 r q := ⟨y 0, y 1, eq_ix2 y⟩
  have hemb : ((cfg0.win 6).blk t).view.emb (ix2 r q) = ix2 (rowAt t r) q := funext fun a => Fin.ext (by
    match a with
    | ⟨0, _⟩ => show win0_6.index t (0 : Fin 2) * 512 + 1 * r.val = 512 * t.val + r.val; omega
    | ⟨1, _⟩ => show win0_6.index t (1 : Fin 2) * 512 + 1 * q.val = q.val; omega)
  obtain ⟨h0, h1, h2, h3, h4, h5⟩ := rows_eq m c t r
  refine (hidden_apply (iblk m c 0 t) (iblk m c 1 t) (iblk m c 2 t) (iblk m c 3 t) (iblk m c 4 t) (iblk m c 5 t) r q).trans ?_
  rw [h0, h1, h2, h3, h4, h5]
  show _ = GHk m c (((cfg0.win 6).blk t).view.emb (ix2 r q))
  rw [hemb]
  rfl

/-- Point `t` writes back block `t` of the new cell state of the whole batch. -/
theorem flushedC (c : Dev nD) (t : Fin cfg0.N) :
    (dats m 0 c).flushed 7 t = ((cfg0.win 7).blk t).view.read (Elt Ideal) (GCk m c) := by
  show (cfg0.win 7).cut (grid0.coords t) ((dats m 0 c).after 7 t) = _
  rw [after7]
  unfold outC
  rw [View.canon_unit_zero hz]
  simp only [View.ld_unit_zero (S := S512x512) hz, View.ld_unit_zero (S := S512x2048) hz, View.ld_unit_zero (S := S1x2048) hz]
  obtain ⟨-, -, -, -, -, -, -, -, -, -, -, -, e60, e61, e70, e71⟩ := idx_facts t
  funext y
  obtain ⟨r, q, rfl⟩ : ∃ (r q : Fin 512), y = ix2 r q := ⟨y 0, y 1, eq_ix2 y⟩
  have hemb : ((cfg0.win 7).blk t).view.emb (ix2 r q) = ix2 (rowAt t r) q := funext fun a => Fin.ext (by
    match a with
    | ⟨0, _⟩ => show win0_7.index t (0 : Fin 2) * 512 + 1 * r.val = 512 * t.val + r.val; omega
    | ⟨1, _⟩ => show win0_7.index t (1 : Fin 2) * 512 + 1 * q.val = q.val; omega)
  obtain ⟨h0, h1, h2, h3, h4, h5⟩ := rows_eq m c t r
  refine (cell_apply (iblk m c 0 t) (iblk m c 1 t) (iblk m c 2 t) (iblk m c 3 t) (iblk m c 4 t) (iblk m c 5 t) r q).trans ?_
  rw [h0, h1, h2, h3, h4, h5]
  show _ = GCk m c (((cfg0.win 7).blk t).view.emb (ix2 r q))
  rw [hemb]
  rfl

/-! ## The blocks tile the arrays -/

theorem mem_blk6 (t : Fin cfg0.N) (i : S32768x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v10_0).slice (win0_6.rect t)).set ↔ _
  rw [View.set_slice_whole, Rect.mem_set_unit]
  exact Iff.rfl

/-- Row `p` lies in the block of point `p / 512`. -/
theorem cover6 (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  have hN : (i 0).val / 512 < cfg0.N := lt_of_lt_of_eq (by omega : (i 0).val / 512 < 64) N_0.symm
  refine ⟨⟨(i 0).val / 512, hN⟩, flush0_6 _, ?_⟩
  rw [mem_blk6]
  obtain ⟨-, -, -, -, -, -, -, -, -, -, -, -, e60, e61, e70, e71⟩ := idx_facts ⟨(i 0).val / 512, hN⟩
  intro a
  match a with
  | ⟨0, _⟩ =>
    show win0_6.index ⟨(i 0).val / 512, hN⟩ (0 : Fin 2) * 512 ≤ (i 0).val
      ∧ (i 0).val < win0_6.index ⟨(i 0).val / 512, hN⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, hN⟩ (1 : Fin 2) * 512 ≤ (i 1).val
      ∧ (i 1).val < win0_6.index ⟨(i 0).val / 512, hN⟩ (1 : Fin 2) * 512 + 512
    rw [e61]; omega

theorem mem_blk7 (t : Fin cfg0.N) (i : S32768x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v10_1).slice (win0_7.rect t)).set ↔ _
  rw [View.set_slice_whole, Rect.mem_set_unit]
  exact Iff.rfl

/-- Row `p` lies in the block of point `p / 512`. -/
theorem cover7 (i : S32768x512.Idx) :
    ∃ t : Fin cfg0.N, (cfg0.win 7).flush t = true ∧ i ∈ ((cfg0.win 7).blk t).view.set := by
  have hi0 : (i 0).val < 32768 := (i 0).isLt
  have hi1 : (i 1).val < 512 := (i 1).isLt
  have hN : (i 0).val / 512 < cfg0.N := lt_of_lt_of_eq (by omega : (i 0).val / 512 < 64) N_0.symm
  refine ⟨⟨(i 0).val / 512, hN⟩, flush0_7 _, ?_⟩
  rw [mem_blk7]
  obtain ⟨-, -, -, -, -, -, -, -, -, -, -, -, e60, e61, e70, e71⟩ := idx_facts ⟨(i 0).val / 512, hN⟩
  intro a
  match a with
  | ⟨0, _⟩ =>
    show win0_7.index ⟨(i 0).val / 512, hN⟩ (0 : Fin 2) * 512 ≤ (i 0).val
      ∧ (i 0).val < win0_7.index ⟨(i 0).val / 512, hN⟩ (0 : Fin 2) * 512 + 512
    rw [e70]; show (i 0).val / 512 * 512 ≤ (i 0).val ∧ (i 0).val < (i 0).val / 512 * 512 + 512; omega
  | ⟨1, _⟩ =>
    show win0_7.index ⟨(i 0).val / 512, hN⟩ (1 : Fin 2) * 512 ≤ (i 1).val
      ∧ (i 1).val < win0_7.index ⟨(i 0).val / 512, hN⟩ (1 : Fin 2) * 512 + 512
    rw [e71]; omega

/-! ## The arrays after the run -/

theorem finalH (c : Dev nD) : (dats m 0 c).arrAt 6 cfg0.N = GHk m c :=
  (dats m 0 c).arrAt_eq_of_cover 6 (GHk m c) (fun t _ => flushedH m c t) cover6

theorem finalC (c : Dev nD) : (dats m 0 c).arrAt 7 cfg0.N = GCk m c :=
  (dats m 0 c).arrAt_eq_of_cover 7 (GCk m c) (fun t _ => flushedC m c t) cover7

/-- Every weakly fair execution of @main terminates with the two results at the LSTM cell of the argument arrays, row
    by row, and the arguments unchanged. -/
theorem run : θ_run defs (onTc (τ := τ) (main (F := Ideal))) ⟨m, fun _ => 0, ρ⟩ fun r => ∀ c : Dev nD,
      r.2.mem ((c : Thread nD τ).loc main_v10_0) = GHk m c
      ∧ r.2.mem ((c : Thread nD τ).loc main_v10_1) = GCk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (finalH m c), ((h c).1 7).trans (finalC m c), kept m r h c⟩)
    (run_main m ρ)

end Cert.KernelIdeal.Val

end
-- ==== Proof.RefValue.lean ====
/-
  The reference's run, read at an index: at row p and hidden unit q its two results are the LSTM cell of row p.
  The generated stage lemmas read one host operation at a time; chained, the packed pre-activation at (p, j) is the
  two contraction sums of row p with the concatenated weight matrices plus the concatenated bias, each gate is
  1 / (1 + exp(−z)) of its 512-column slice, and the two results are the new cell state and the new hidden state.
  The three concatenations are never opened: the other program concatenates the same arrays in the same way.
-/
import proofs.«110583_j3728031613360_2_alg».proof.Proof.Gen.ReferenceIdeal.Read
import proofs.«110583_j3728031613360_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Lstm

variable (x0 x1 x2 : (⟨S32768x512, .f32⟩ : BufTy).Contents (Elt Ideal))
  (x3 x4 x7 x8 x11 x12 x15 x16 : (⟨S512x512, .f32⟩ : BufTy).Contents (Elt Ideal))
  (x5 x6 x9 x10 x13 x14 x17 x18 : (⟨S512, .f32⟩ : BufTy).Contents (Elt Ideal))

/-- The host's spelling of the logistic function. -/
theorem logistic_form (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = logistic z := by
  show Ideal.div (Ideal.ofBits .f32 0x3F800000#32) (Ideal.ofBits .f32 0x3F800000#32 + Ideal.exp (-z)) = _
  rw [ofBits_one]; rfl

/-- The packed pre-activation at row `p`, column `j`. -/
theorem pre_apply (p : Fin 32768) (j : Fin 2048) :
    val_main_v12 (F := Ideal) x0 x1 x3 x4 x5 x6 x7 x8 x9 x10 x11 x12 x13 x14 x15 x16 x17 x18 (ix2 p j) = (pre (fun k => x0 (ix2 p k)) (fun k => x1 (ix2 p k)) (fun k j => val_main_v0 (F := Ideal) x3 x7 x11 x15 (ix2 k j)) (fun k j => val_main_v1 (F := Ideal) x4 x8 x12 x16 (ix2 k j)) (fun j => val_main_v6 (F := Ideal) x5 x6 x9 x10 x13 x14 x17 x18 (ix1 j)) j) := by
  have e1 : ∀ k, lidx_main_v7 (ix2 p j) k = ix2 p k := fun k => funext fun a => Fin.ext (by
    match a with
    | ⟨0, _⟩ => rfl
    | ⟨1, _⟩ => rfl)
  have e2 : ∀ k, ridx_main_v7 (ix2 p j) k = ix2 k j := fun k => funext fun a => Fin.ext (by
    match a with
    | ⟨0, _⟩ => rfl
    | ⟨1, _⟩ => rfl)
  have e3 : ∀ k, lidx_main_v8 (ix2 p j) k = ix2 p k := fun k => funext fun a => Fin.ext (by
    match a with
    | ⟨0, _⟩ => rfl
    | ⟨1, _⟩ => rfl)
  have e4 : ∀ k, ridx_main_v8 (ix2 p j) k = ix2 k j := fun k => funext fun a => Fin.ext (by
    match a with
    | ⟨0, _⟩ => rfl
    | ⟨1, _⟩ => rfl)
  have e5 : idx_main_v10 (idx_main_v11 (ix2 p j)) = ix1 j := funext fun a => Fin.ext (by
    match a with
    | ⟨0, _⟩ => rfl)
  rw [val_main_v12_apply, val_main_v9_apply, val_main_v7_apply, val_main_v8_apply, val_main_v11_apply,
    val_main_v10_apply, e5]
  simp only [e1, e2, e3, e4]
  rfl

/-- The input gate. -/
theorem gate0 (p : Fin 32768) (q : Fin 512) :
    val_main_v22 (F := Ideal) x0 x1 x3 x4 x5 x6 x7 x8 x9 x10 x11 x12 x13 x14 x15 x16 x17 x18 (ix2 p q) = logistic (pre (fun k => x0 (ix2 p k)) (fun k => x1 (ix2 p k)) (fun k j => val_main_v0 (F := Ideal) x3 x7 x11 x15 (ix2 k j)) (fun k j => val_main_v1 (F := Ideal) x4 x8 x12 x16 (ix2 k j)) (fun j => val_main_v6 (F := Ideal) x5 x6 x9 x10 x13 x14 x17 x18 (ix1 j)) (col 0 q)) := by
  have e : idx_main_v13 (ix2 p q) = ix2 p (col 0 q) := funext fun a => Fin.ext (by
    match a with
    | ⟨0, _⟩ => rfl
    | ⟨1, _⟩ => show q.val = 512 * 0 + q.val; omega)
  rw [val_main_v22_apply, val_main_v21_apply, val_main_cst_0_apply, val_main_v20_apply, val_main_v19_apply,
    val_main_cst_apply, val_main_v18_apply, val_main_v17_apply, val_main_v13_apply, e, pre_apply]
  exact logistic_form _

/-- The forget gate. -/
theorem gate1 (p : Fin 32768) (q : Fin 512) :
    val_main_v28 (F := Ideal) x0 x1 x3 x4 x5 x6 x7 x8 x9 x10 x11 x12 x13 x14 x15 x16 x17 x18 (ix2 p q) = logistic (pre (fun k => x0 (ix2 p k)) (fun k => x1 (ix2 p k)) (fun k j => val_main_v0 (F := Ideal) x3 x7 x11 x15 (ix2 k j)) (fun k j => val_main_v1 (F := Ideal) x4 x8 x12 x16 (ix2 k j)) (fun j => val_main_v6 (F := Ideal) x5 x6 x9 x10 x13 x14 x17 x18 (ix1 j)) (col 1 q)) := by
  have e : idx_main_v14 (ix2 p q) = ix2 p (col 1 q) := funext fun a => Fin.ext (by
    match a with
    | ⟨0, _⟩ => rfl
    | ⟨1, _⟩ => show 512 + q.val = 512 * 1 + q.val; omega)
  rw [val_main_v28_apply, val_main_v27_apply, val_main_cst_2_apply, val_main_v26_apply, val_main_v25_apply,
    val_main_cst_1_apply, val_main_v24_apply, val_main_v23_apply, val_main_v14_apply, e, pre_apply]
  exact logistic_form _

/-- The cell candidate. -/
theorem gate2 (p : Fin 32768) (q : Fin 512) :
    val_main_v34 (F := Ideal) x0 x1 x3 x4 x5 x6 x7 x8 x9 x10 x11 x12 x13 x14 x15 x16 x17 x18 (ix2 p q) = logistic (pre (fun k => x0 (ix2 p k)) (fun k => x1 (ix2 p k)) (fun k j => val_main_v0 (F := Ideal) x3 x7 x11 x15 (ix2 k j)) (fun k j => val_main_v1 (F := Ideal) x4 x8 x12 x16 (ix2 k j)) (fun j => val_main_v6 (F := Ideal) x5 x6 x9 x10 x13 x14 x17 x18 (ix1 j)) (col 2 q)) := by
  have e : idx_main_v15 (ix2 p q) = ix2 p (col 2 q) := funext fun a => Fin.ext (by
    match a with
    | ⟨0, _⟩ => rfl
    | ⟨1, _⟩ => show 1024 + q.val = 512 * 2 + q.val; omega)
  rw [val_main_v34_apply, val_main_v33_apply, val_main_cst_4_apply, val_main_v32_apply, val_main_v31_apply,
    val_main_cst_3_apply, val_main_v30_apply, val_main_v29_apply, val_main_v15_apply, e, pre_apply]
  exact logistic_form _

/-- The output gate. -/
theorem gate3 (p : Fin 32768) (q : Fin 512) :
    val_main_v40 (F := Ideal) x0 x1 x3 x4 x5 x6 x7 x8 x9 x10 x11 x12 x13 x14 x15 x16 x17 x18 (ix2 p q) = logistic (pre (fun k => x0 (ix2 p k)) (fun k => x1 (ix2 p k)) (fun k j => val_main_v0 (F := Ideal) x3 x7 x11 x15 (ix2 k j)) (fun k j => val_main_v1 (F := Ideal) x4 x8 x12 x16 (ix2 k j)) (fun j => val_main_v6 (F := Ideal) x5 x6 x9 x10 x13 x14 x17 x18 (ix1 j)) (col 3 q)) := by
  have e : idx_main_v16 (ix2 p q) = ix2 p (col 3 q) := funext fun a => Fin.ext (by
    match a with
    | ⟨0, _⟩ => rfl
    | ⟨1, _⟩ => show 1536 + q.val = 512 * 3 + q.val; omega)
  rw [val_main_v40_apply, val_main_v39_apply, val_main_cst_6_apply, val_main_v38_apply, val_main_v37_apply,
    val_main_cst_5_apply, val_main_v36_apply, val_main_v35_apply, val_main_v16_apply, e, pre_apply]
  exact logistic_form _

/-- The reference's second result is the new cell state of the whole batch. -/
theorem cell_eq :
    val_main_v43 (F := Ideal) x0 x1 x2 x3 x4 x5 x6 x7 x8 x9 x10 x11 x12 x13 x14 x15 x16 x17 x18
      = GC x0 x1 x2 (val_main_v0 (F := Ideal) x3 x7 x11 x15) (val_main_v1 (F := Ideal) x4 x8 x12 x16)
          (val_main_v6 (F := Ideal) x5 x6 x9 x10 x13 x14 x17 x18) := by
  funext i
  obtain ⟨p, q, rfl⟩ : ∃ (p : Fin 32768) (q : Fin 512), i = ix2 p q := ⟨i 0, i 1, eq_ix2 i⟩
  rw [val_main_v43_apply, val_main_v41_apply, val_main_v42_apply, gate1, gate0, gate2]
  rfl

/-- The reference's first result is the new hidden state of the whole batch. -/
theorem hidden_eq :
    val_main_v45 (F := Ideal) x0 x1 x2 x3 x4 x5 x6 x7 x8 x9 x10 x11 x12 x13 x14 x15 x16 x17 x18
      = GH x0 x1 x2 (val_main_v0 (F := Ideal) x3 x7 x11 x15) (val_main_v1 (F := Ideal) x4 x8 x12 x16)
          (val_main_v6 (F := Ideal) x5 x6 x9 x10 x13 x14 x17 x18) := by
  funext i
  obtain ⟨p, q, rfl⟩ : ∃ (p : Fin 32768) (q : Fin 512), i = ix2 p q := ⟨i 0, i 1, eq_ix2 i⟩
  rw [val_main_v45_apply, val_main_v44_apply, gate3, cell_eq]
  rfl

/-- The reference's concatenations are the packed weights and bias. -/
theorem W0_eq : val_main_v0 (F := Ideal) x3 x7 x11 x15 = catW x3 x7 x11 x15 := rfl
theorem W1_eq : val_main_v1 (F := Ideal) x4 x8 x12 x16 = catW x4 x8 x12 x16 := rfl
theorem B_eq : val_main_v6 (F := Ideal) x5 x6 x9 x10 x13 x14 x17 x18 = catB x5 x6 x9 x10 x13 x14 x17 x18 := rfl

/-- The first result over the packed weights and bias as both programs build them. -/
theorem hidden_res :
    val_main_v45 (F := Ideal) x0 x1 x2 x3 x4 x5 x6 x7 x8 x9 x10 x11 x12 x13 x14 x15 x16 x17 x18
      = GH x0 x1 x2 (catW x3 x7 x11 x15) (catW x4 x8 x12 x16) (catB x5 x6 x9 x10 x13 x14 x17 x18) := by
  rw [hidden_eq, W0_eq, W1_eq, B_eq]

/-- The second result over the packed weights and bias as both programs build them. -/
theorem cell_res :
    val_main_v43 (F := Ideal) x0 x1 x2 x3 x4 x5 x6 x7 x8 x9 x10 x11 x12 x13 x14 x15 x16 x17 x18
      = GC x0 x1 x2 (catW x3 x7 x11 x15) (catW x4 x8 x12 x16) (catB x5 x6 x9 x10 x13 x14 x17 x18) := by
  rw [cell_eq, W0_eq, W1_eq, B_eq]

end Cert.ReferenceIdeal.RefValue

end
-- ==== Proof.lean ====
/-
  An LSTM cell over a batch of 32768 rows, as a pipelined kernel against its plain reference, on the extended reals.
  Both programs pack the four gates' weight matrices side by side and the four gates' summed biases end to end, and
  compute, for each row, z = (x · Wx + h · Wh) + b, the four gates as the logistic function of z's four 512-column
  slices, c' = f · c + i · g and h' = o · tanh c'. They differ in three ways, none of which changes a value on the
  extended reals: the kernel rounds its matrix operands to bf16 (the identity there); it walks the batch in 64
  blocks of 512 rows (each row's cell depends on that row alone, and the blocks tile the arrays); and it writes the
  logistic function as ½ · (tanh(½ z) + 1) where the reference writes 1 / (1 + exp(−z)) — equal at every extended
  real, the infinities included, so the inputs' finiteness is never used.
  The three frames: each kernel program runs its ten host operations and its one region to the end and leaves the
  nineteen argument arrays as launched; the reference's frame is its run with the results dropped.
-/
import proofs.«110583_j3728031613360_2_alg».proof.Defs
import proofs.«110583_j3728031613360_2_alg».proof.Proof.Gen.Kernel
import proofs.«110583_j3728031613360_2_alg».proof.Proof.Gen.KernelIdeal
import proofs.«110583_j3728031613360_2_alg».proof.Proof.Gen.ReferenceIdeal
import proofs.«110583_j3728031613360_2_alg».proof.Proof.Gen.Pre_finite_inputs
import proofs.«110583_j3728031613360_2_alg».proof.Proof.FrameBits
import proofs.«110583_j3728031613360_2_alg».proof.Proof.FrameIdeal
import proofs.«110583_j3728031613360_2_alg».proof.Proof.KernelValue
import proofs.«110583_j3728031613360_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame m ρ

theorem frame_kernelIdeal : Cert.frame_KernelIdeal := fun m ρ _ => Cert.KernelIdeal.Frm.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments the kernel's two result arrays end at the LSTM cell of the argument
    arrays, row by row, and so do the reference's: the same two functions. -/
theorem algebraic : Cert.algebraic_KernelIdeal_ReferenceIdeal := by
  intro m ρ m' ρ' _ hagree
  refine ⟨fun c => Cert.KernelIdeal.Val.GHk m c, fun c => Cert.KernelIdeal.Val.GCk m c,
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v45_eq, Cert.ReferenceIdeal.RefValue.hidden_res,
      a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [Cert.ReferenceIdeal.Read.val_main_v43_eq, Cert.ReferenceIdeal.RefValue.cell_res,
      a0, a1, a2, a3, a4, a5, a6, a7, a8, a9, a10, a11, a12, a13, a14, a15, a16, a17, a18]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
